-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x1 : Shape := ⟨2, ![8192, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  reducesTo_S_S_d : S_.ReducesTo [] S_

variable [Facts]

def fn_part1 {F : FTy → Type} [FloatOps F] (main_arg4 : FVec F S_ .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S8192x256 .f32) (main_arg1 : FVec F S8192x256 .f32) (main_arg2 : FVec F S8192x1 .f32) (main_arg3 : FVec F S8192x1 .f32) (main_arg4 : FVec F S_ .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_v13 main_v16
-- ==== Kernel.lean ====
abbrev S8192x256 : Shape := ⟨2, ![8192, 256]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S1024x256 : Shape := ⟨2, ![1024, 256]⟩
abbrev S512x256 : Shape := ⟨2, ![512, 256]⟩
abbrev S1024x1 : Shape := ⟨2, ![1024, 1]⟩
abbrev S1x512 : Shape := ⟨2, ![1, 512]⟩
abbrev S512x1 : Shape := ⟨2, ![512, 1]⟩
abbrev S256x512 : Shape := ⟨2, ![256, 512]⟩
abbrev S1024x512 : Shape := ⟨2, ![1024, 512]⟩

abbrev nBuf : Space → Nat
  | .hbm => 18
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S8192x1, .f32⟩
  | .hbm, ⟨4, _⟩ => ⟨S_, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S1x8192, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S512x1, .f32⟩
  | .local _ .vmem, ⟨9, _⟩ => ⟨S512x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bcast_S_S8192x1 : S_.BroadcastsInDim S8192x1 (![] : Fin 0 → Fin S8192x1.rank)
  dot_S1024x256_S256x512_S1024x512_1_0_0_1_n_n_wf : DotDims.WF S1024x256 S256x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S8192x1, .f32⟩
  | .hbm, ⟨4, _⟩ => ⟨S_, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S256x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  bcast_S_S8192x1 : S_.BroadcastsInDim S8192x1 (![] : Fin 0 → Fin S8192x1.rank)
  dot_S8192x256_S256x8192_S8192x8192_1_0_0_1_n_n_wf : DotDims.WF S8192x256 S256x8192 S8192x8192 [1] [0] [0] [1] [] []
  dot_S8192x8192_S8192x1_S8192x1_1_0_0_1_n_n_wf : DotDims.WF S8192x8192 S8192x1 S8192x1 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.KPieces.lean ====
/-
  What each control case of the body leaves behind.

  The body has two conditionals on the training-group coordinate: "first group" (zero the running column) and "last
  group" (copy the running column to the output block). On an 8 by 16 grid three combinations occur: first and not
  last, neither, last and not first. In every one the body stores the running column exactly once after the
  arithmetic, through the whole buffer, so what the column holds afterwards is that one stored value: the step
  function of the five loaded blocks and of the column's value before — which, in the first case, is the zero column
  just stored and read back. In the last case the output block receives a read-back of the column just stored.
-/
import proofs.«175856_j59622736003634_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access, however spelt. -/
theorem hz : (![0, 0] : Fin 2 → Nat) = fun _ => 0 := funext fun a => by fin_cases a <;> rfl

/-- Neither first nor last: the column ends at the step function of the loaded blocks and its earlier value. -/
theorem scratch_B (c : Dev nD) (i : grid0.Coords) (a2 : Memref sig .tc .vmem S1024x256 .f32) (h2 : a2.IsWhole) (a3 : Memref sig .tc .vmem S512x256 .f32) (h3 : a3.IsWhole) (a4 : Memref sig .tc .vmem S1024x1 .f32) (h4 : a4.IsWhole) (a5 : Memref sig .tc .vmem S1x512 .f32) (h5 : a5.IsWhole) (a6 : Memref sig .tc .vmem S512x1 .f32) (h6 : a6.IsWhole) (a7 : Memref sig .tc .vmem S1024x1 .f32) (h7 : a7.IsWhole) (a8 : Memref sig .tc .vmem S1024x1 .f32) (h8 : a8.IsWhole) (hc0 : ¬cond0_0 i) (hc1 : ¬cond0_1 i)
    (x0 : Vec F S1024x256 .f32) (x1 : Vec F S512x256 .f32) (x2 : Vec F S1024x1 .f32) (x3 : Vec F S1x512 .f32) (x4 : Vec F S512x1 .f32) (xs0 : Vec F S1024x1 .f32) :
    sout0_B_0 c i a2 h2 a3 h3 a4 h4 a5 h5 a6 h6 a7 h7 a8 h8 hc0 hc1 x0 x1 x2 x3 x4 xs0 = k0_pay2 x0 x1 x2 x3 x4 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  rw [View.canon_unit_zero (S := S1024x1) hz]
  simp only [View.readAt_eq_ld, h2.read_unread, h3.read_unread, h4.read_unread, h5.read_unread, h6.read_unread, h8.read_unread,
    View.ld_unit_zero (S := S1024x256) hz, View.ld_unit_zero (S := S512x256) hz, View.ld_unit_zero (S := S1024x1) hz,
    View.ld_unit_zero (S := S1x512) hz, View.ld_unit_zero (S := S512x1) hz]

/-- First group: the column ends at the step function of the loaded blocks and the zero column. -/
theorem scratch_A (c : Dev nD) (i : grid0.Coords) (a2 : Memref sig .tc .vmem S1024x256 .f32) (h2 : a2.IsWhole) (a3 : Memref sig .tc .vmem S512x256 .f32) (h3 : a3.IsWhole) (a4 : Memref sig .tc .vmem S1024x1 .f32) (h4 : a4.IsWhole) (a5 : Memref sig .tc .vmem S1x512 .f32) (h5 : a5.IsWhole) (a6 : Memref sig .tc .vmem S512x1 .f32) (h6 : a6.IsWhole) (a7 : Memref sig .tc .vmem S1024x1 .f32) (h7 : a7.IsWhole) (a8 : Memref sig .tc .vmem S1024x1 .f32) (h8 : a8.IsWhole) (hc0 : cond0_0 i) (hc1 : ¬cond0_1 i)
    (x0 : Vec F S1024x256 .f32) (x1 : Vec F S512x256 .f32) (x2 : Vec F S1024x1 .f32) (x3 : Vec F S1x512 .f32) (x4 : Vec F S512x1 .f32) :
    sout0_A_0 c i a2 h2 a3 h3 a4 h4 a5 h5 a6 h6 a7 h7 a8 h8 hc0 hc1 x0 x1 x2 x3 x4 = k0_pay2 x0 x1 x2 x3 x4 (k0_pay1 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h5.read_unread, h6.read_unread, h8.read_unread,
    View.ld_unit_zero (S := S1024x256) hz, View.ld_unit_zero (S := S512x256) hz, View.ld_unit_zero (S := S1024x1) hz,
    View.ld_unit_zero (S := S1x512) hz, View.ld_unit_zero (S := S512x1) hz]

/-- Last group: the column ends as in the middle case, -/
theorem scratch_C (c : Dev nD) (i : grid0.Coords) (a2 : Memref sig .tc .vmem S1024x256 .f32) (h2 : a2.IsWhole) (a3 : Memref sig .tc .vmem S512x256 .f32) (h3 : a3.IsWhole) (a4 : Memref sig .tc .vmem S1024x1 .f32) (h4 : a4.IsWhole) (a5 : Memref sig .tc .vmem S1x512 .f32) (h5 : a5.IsWhole) (a6 : Memref sig .tc .vmem S512x1 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i)
    (x0 : Vec F S1024x256 .f32) (x1 : Vec F S512x256 .f32) (x2 : Vec F S1024x1 .f32) (x3 : Vec F S1x512 .f32) (x4 : Vec F S512x1 .f32) (xs0 : Vec F S1024x1 .f32) :
    sout0_C_0 c i a2 h2 a3 h3 a4 h4 a5 h5 a6 h6 a7 h7 a8 h8 hc0 hc1 x0 x1 x2 x3 x4 xs0 = k0_pay2 x0 x1 x2 x3 x4 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero (S := S1024x1) hz]
  simp only [View.readAt_eq_ld, h2.read_unread, h3.read_unread, h4.read_unread, h5.read_unread, h6.read_unread, h8.read_unread,
    View.ld_unit_zero (S := S1024x256) hz, View.ld_unit_zero (S := S512x256) hz, View.ld_unit_zero (S := S1024x1) hz,
    View.ld_unit_zero (S := S1x512) hz, View.ld_unit_zero (S := S512x1) hz]

/-- and the output block receives that same value. -/
theorem out_C (c : Dev nD) (i : grid0.Coords) (a2 : Memref sig .tc .vmem S1024x256 .f32) (h2 : a2.IsWhole) (a3 : Memref sig .tc .vmem S512x256 .f32) (h3 : a3.IsWhole) (a4 : Memref sig .tc .vmem S1024x1 .f32) (h4 : a4.IsWhole) (a5 : Memref sig .tc .vmem S1x512 .f32) (h5 : a5.IsWhole) (a6 : Memref sig .tc .vmem S512x1 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i)
    (x0 : Vec F S1024x256 .f32) (x1 : Vec F S512x256 .f32) (x2 : Vec F S1024x1 .f32) (x3 : Vec F S1x512 .f32) (x4 : Vec F S512x1 .f32) (xs0 : Vec F S1024x1 .f32) :
    out0_C_5 c i a2 h2 a3 h3 a4 h4 a5 h5 a6 h6 a7 h7 a8 h8 hc0 hc1 x0 x1 x2 x3 x4 xs0 = k0_pay2 x0 x1 x2 x3 x4 xs0 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero (S := S1024x1) hz, View.readCov_unit_zero (S := S1024x1) _ hz]
  simp only [View.readAt_eq_ld, h2.read_unread, h3.read_unread, h4.read_unread, h5.read_unread, h6.read_unread, h8.read_unread,
    View.ld_unit_zero (S := S1024x256) hz, View.ld_unit_zero (S := S512x256) hz, View.ld_unit_zero (S := S1024x1) hz,
    View.ld_unit_zero (S := S1x512) hz, View.ld_unit_zero (S := S512x1) hz]

end Cert.KernelIdeal.Pieces

end
-- ==== Proof.RbfSpec.lean ====
/-
  The arithmetic shared by both sides, with no program in sight.

  An RBF support-vector prediction is, for a query row, the sum over all training rows of a Gaussian weight times a
  signed dual coefficient. The weight is written through the expansion of the squared distance,
  `exp (-(1/2) * ((|x|^2 + |y|^2) - 2 * <x, y>))`, on the extended reals. One side adds the 8192 training rows in one
  sum, the other in sixteen consecutive groups of 512: the two agree because addition on the extended reals is
  commutative and associative (no finiteness is needed: nothing is cancelled or distributed).
-/
import Idealize.ShloMosaic.PureOps.Ideal.Laws

noncomputable section

namespace Cert.Rbf

open Idealize.ShloMosaic

/-- The Gaussian weight from the two squared norms `p`, `q` and the inner product `s`:
    `exp (-(1/2) * ((p + q) - 2 * s))`, the two constants as their binary words. -/
def weight (p q s : EReal) : EReal :=
  Ideal.exp (Ideal.ofBits .f32 0xBF000000#32 * ((p + q) - Ideal.ofBits .f32 0x40000000#32 * s))

/-- Training row `j` of group `k`, among all 8192. -/
abbrev col (k : Fin 16) (j : Fin 512) : Fin 8192 :=
  ⟨512 * k.val + j.val, by have := k.isLt; have := j.isLt; omega⟩

/-- Query row `r` of row group `i`, among all 8192. -/
abbrev row (i : Fin 8) (r : Fin 1024) : Fin 8192 :=
  ⟨1024 * i.val + r.val, by have := i.isLt; have := r.isLt; omega⟩

/-- Sixteen groups of 512 consecutive terms exhaust a sum of 8192 terms: the pair (group, place) is the place's
    quotient and remainder by 512. -/
theorem sum_groups {M : Type*} [AddCommMonoid M] (f : Fin 8192 → M) :
    ∑ k : Fin 16, ∑ j : Fin 512, f (col k j) = ∑ J : Fin 8192, f J := by
  rw [← Fintype.sum_prod_type']
  exact Fintype.sum_equiv (finProdFinEquiv : Fin 16 × Fin 512 ≃ Fin 8192) _ _
    (fun x => congrArg f (Fin.ext (by simp [finProdFinEquiv]; omega)))

end Cert.Rbf

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KPayload.lean ====
/-
  What one grid point adds to the running column, read at a row.

  The body's one stored value is, at row `r`, the running value at `r` plus the sum over the point's 512 training rows
  `j` of the Gaussian weight of (query row `r`, training row `j`) times the signed coefficient of `j`. The inner product
  inside the weight is the first matrix product (over the 256 features, the training block transposed), the outer sum
  the second (a [1024,512] by [512,1] product); the narrowing to a 16-bit format between them is the identity on the
  extended reals.
-/
import proofs.«175856_j59622736003634_1_alg».proof.Proof.Gen.KernelIdeal.Skeleton
import proofs.«175856_j59622736003634_1_alg».proof.Proof.RbfSpec
import proofs.«175856_j59622736003634_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! The operand coordinates of the two matrix products: the left operand is read at (output row, contracted place),
    the right at (contracted place, output column). -/

theorem inner_lhs0 (i : S1024x512.Idx) (q : dot_S1024x256_S256x512_S1024x512_1_0_0_1_n_n.contr.Idx) : (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem inner_lhs1 (i : S1024x512.Idx) (q : dot_S1024x256_S256x512_S1024x512_1_0_0_1_n_n.contr.Idx) : (dot_S1024x256_S256x512_S1024x512_1_0_0_1_n_n.lhsIdx i q 1).val = (q ⟨0, by decide⟩).val :=
  dot_S1024x256_S256x512_S1024x512_1_0_0_1_n_n.lhsIdx_val_of_single rfl i q
theorem inner_rhs0 (i : S1024x512.Idx) (q : dot_S1024x256_S256x512_S1024x512_1_0_0_1_n_n.contr.Idx) : (dot_S1024x256_S256x512_S1024x512_1_0_0_1_n_n.rhsIdx i q 0).val = (q ⟨0, by decide⟩).val :=
  dot_S1024x256_S256x512_S1024x512_1_0_0_1_n_n.rhsIdx_val_of_single rfl i q
theorem inner_rhs1 (i : S1024x512.Idx) (q : dot_S1024x256_S256x512_S1024x512_1_0_0_1_n_n.contr.Idx) : (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

theorem outer_lhs0 (i : S1024x1.Idx) (q : dot_S1024x512_S512x1_S1024x1_1_0_0_1_n_n.contr.Idx) : (dot_S1024x512_S512x1_S1024x1_1_0_0_1_n_n.lhsIdx i q 0).val = (i 0).val := by
  unfold DotDims.lhsIdx
  rw [dif_neg (show ¬(0 : Fin S1024x512.rank) ∈ dot_S1024x512_S512x1_S1024x1_1_0_0_1_n_n.lhsBatch by decide), dif_pos (show (0 : Fin S1024x512.rank) ∈ dot_S1024x512_S512x1_S1024x1_1_0_0_1_n_n.lhsNonContracting by decide)]
  rfl
theorem outer_lhs1 (i : S1024x1.Idx) (q : dot_S1024x512_S512x1_S1024x1_1_0_0_1_n_n.contr.Idx) : (dot_S1024x512_S512x1_S1024x1_1_0_0_1_n_n.lhsIdx i q 1).val = (q ⟨0, by decide⟩).val :=
  dot_S1024x512_S512x1_S1024x1_1_0_0_1_n_n.lhsIdx_val_of_single rfl i q
theorem outer_rhs0 (i : S1024x1.Idx) (q : dot_S1024x512_S512x1_S1024x1_1_0_0_1_n_n.contr.Idx) : (dot_S1024x512_S512x1_S1024x1_1_0_0_1_n_n.rhsIdx i q 0).val = (q ⟨0, by decide⟩).val :=
  dot_S1024x512_S512x1_S1024x1_1_0_0_1_n_n.rhsIdx_val_of_single rfl i q
theorem outer_rhs1 (i : S1024x1.Idx) (q : dot_S1024x512_S512x1_S1024x1_1_0_0_1_n_n.contr.Idx) : (dot_S1024x512_S512x1_S1024x1_1_0_0_1_n_n.rhsIdx i q 1).val = (i 1).val := by
  unfold DotDims.rhsIdx
  rw [dif_neg (show ¬(1 : Fin S512x1.rank) ∈ dot_S1024x512_S512x1_S1024x1_1_0_0_1_n_n.rhsBatch by decide), dif_pos (show (1 : Fin S512x1.rank) ∈ dot_S1024x512_S512x1_S1024x1_1_0_0_1_n_n.rhsNonContracting by decide)]
  rfl

/-- The first product at (r, j): the inner product of query row `r` and training row `j` over the 256 features. -/
theorem inner_apply (x0 : FVec Ideal S1024x256 .bf16) (x1 : FVec Ideal S512x256 .bf16) (r : Fin 1024) (j : Fin 512) :
    matmul (F := Ideal) dot_S1024x256_S256x512_S1024x512_1_0_0_1_n_n none x0
      (transpose S256x512 [1, 0] x1 transposes_S512x256_p1_0_S256x512) (constant S1024x512 .f32 0x00000000#32) (ix2 r j)
      = ∑ d : Fin 256, x0 (ix2 r d) * x1 (ix2 j d) := by
  refine (Ideal.matmul_constant_zero_apply dot_S1024x256_S256x512_S1024x512_1_0_0_1_n_n none x0 _ (ix2 r j)).trans ?_
  rw [← Equiv.sum_comp (contrEquiv1 dot_S1024x256_S256x512_S1024x512_1_0_0_1_n_n 256 rfl rfl).symm]
  refine Finset.sum_congr rfl fun d _ => ?_
  have hk := contrEquiv1_symm_val dot_S1024x256_S256x512_S1024x512_1_0_0_1_n_n 256 rfl rfl d
  have el : dot_S1024x256_S256x512_S1024x512_1_0_0_1_n_n.lhsIdx (ix2 r j) ((contrEquiv1 dot_S1024x256_S256x512_S1024x512_1_0_0_1_n_n 256 rfl rfl).symm d) = ix2 r d :=
    funext fun a => Fin.ext (by
      match a with
      | ⟨0, _⟩ => exact inner_lhs0 _ _
      | ⟨1, _⟩ => exact (inner_lhs1 _ _).trans hk)
  have er : dot_S1024x256_S256x512_S1024x512_1_0_0_1_n_n.rhsIdx (ix2 r j) ((contrEquiv1 dot_S1024x256_S256x512_S1024x512_1_0_0_1_n_n 256 rfl rfl).symm d) = ix2 d j :=
    funext fun a => Fin.ext (by
      match a with
      | ⟨0, _⟩ => exact (inner_rhs0 _ _).trans hk
      | ⟨1, _⟩ => exact inner_rhs1 _ _)
  rw [el, er, transpose_ix2_apply]

/-- The second product at (r, u): the sum over the block's 512 training rows of a [1024,512] array at (r, j) times a
    [512,1] column at (j, u). -/
theorem outer_apply (w : FVec Ideal S1024x512 .bf16) (v : FVec Ideal S512x1 .bf16) (r : Fin 1024) (u : Fin 1) :
    matmul (F := Ideal) dot_S1024x512_S512x1_S1024x1_1_0_0_1_n_n none w v (constant S1024x1 .f32 0x00000000#32) (ix2 r u)
      = ∑ j : Fin 512, w (ix2 r j) * v (ix2 j u) := by
  refine (Ideal.matmul_constant_zero_apply dot_S1024x512_S512x1_S1024x1_1_0_0_1_n_n none w v (ix2 r u)).trans ?_
  rw [← Equiv.sum_comp (contrEquiv1 dot_S1024x512_S512x1_S1024x1_1_0_0_1_n_n 512 rfl rfl).symm]
  refine Finset.sum_congr rfl fun j _ => ?_
  have hk := contrEquiv1_symm_val dot_S1024x512_S512x1_S1024x1_1_0_0_1_n_n 512 rfl rfl j
  have el : dot_S1024x512_S512x1_S1024x1_1_0_0_1_n_n.lhsIdx (ix2 r u) ((contrEquiv1 dot_S1024x512_S512x1_S1024x1_1_0_0_1_n_n 512 rfl rfl).symm j) = ix2 r j :=
    funext fun a => Fin.ext (by
      match a with
      | ⟨0, _⟩ => exact outer_lhs0 _ _
      | ⟨1, _⟩ => exact (outer_lhs1 _ _).trans hk)
  have er : dot_S1024x512_S512x1_S1024x1_1_0_0_1_n_n.rhsIdx (ix2 r u) ((contrEquiv1 dot_S1024x512_S512x1_S1024x1_1_0_0_1_n_n 512 rfl rfl).symm j) = ix2 j u :=
    funext fun a => Fin.ext (by
      match a with
      | ⟨0, _⟩ => exact (outer_rhs0 _ _).trans hk
      | ⟨1, _⟩ => exact outer_rhs1 _ _)
  rw [el, er]

/-- The column the first point of a row group starts from is zero at every row. -/
theorem start_apply (r : Fin 1024) (u : Fin 1) : k0_pay1 (F := Ideal) (ix2 r u) = 0 := by
  unfold k0_pay1
  rw [shapeCast_self]
  exact Ideal.ofBits_zero_f32

/-- The stored column at row `r`: the running value plus the block's weighted sum. -/
theorem step_apply (x0 : Vec Ideal S1024x256 .f32) (x1 : Vec Ideal S512x256 .f32) (x2 : Vec Ideal S1024x1 .f32)
    (x3 : Vec Ideal S1x512 .f32) (x4 : Vec Ideal S512x1 .f32) (acc : Vec Ideal S1024x1 .f32) (r : Fin 1024) (u : Fin 1) :
    k0_pay2 (F := Ideal) x0 x1 x2 x3 x4 acc (ix2 r u)
      = acc (ix2 r u) + ∑ j : Fin 512,
          Rbf.weight (x2 (ix2 r (0 : Fin 1))) (x3 (ix2 (0 : Fin 1) j)) (∑ d : Fin 256, x0 (ix2 r d) * x1 (ix2 j d)) * x4 (ix2 j u) := by
  unfold k0_pay2
  simp only [shapeCast_self]
  refine congrArg (acc (ix2 r u) + ·) ?_
  refine (outer_apply _ _ r u).trans (Finset.sum_congr rfl fun j _ => ?_)
  refine congrArg (· * x4 (ix2 j u)) ?_
  show Ideal.exp (Ideal.ofBits .f32 0xBF000000#32 * ((broadcastTo S1024x512 x2 broadcasts_S1024x1_S1024x512 (ix2 r j)
      + broadcastTo S1024x512 x3 broadcasts_S1x512_S1024x512 (ix2 r j))
      - Ideal.ofBits .f32 0x40000000#32 * _)) = _
  rw [Cert.LibKeepdims.broadcastTo_a1_ab_apply, broadcastTo_1b_ab_apply, inner_apply]
  rfl

end Cert.KernelIdeal.Payload

end
-- ==== Proof.KBlocks.lean ====
/-
  The blocks the body is handed, read at global coordinates.

  Grid point `t` is the pair (row group `t / 16`, training group `t % 16`). The query-side windows (the query rows and
  their squared norms) move with the row group, 1024 rows at a time; the training-side windows (the training rows,
  their squared norms laid out as one row, the signed coefficients) move with the training group, 512 at a time. So an
  entry of a block at local coordinates is the entry of the whole array at (group * size + local) along the moving axis.
-/
import proofs.«175856_j59622736003634_1_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block index of each window at each point, decided once over the grid: the query-side windows and the output
    follow `t / 16`, the training-side windows `t % 16`; the other axis never moves. -/
theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index1 : ∀ t : Fin cfg0.N, win0_1.index t 0 = t.val % 16 ∧ win0_1.index t 1 = 0 :=
  (by decide +kernel : ∀ t : Fin grid0.N, win0_1.index t 0 = t.val % 16 ∧ win0_1.index t 1 = 0)
theorem index2 : ∀ t : Fin cfg0.N, win0_2.index t 0 = t.val / 16 ∧ win0_2.index t 1 = 0 :=
  (by decide +kernel : ∀ t : Fin grid0.N, win0_2.index t 0 = t.val / 16 ∧ win0_2.index t 1 = 0)
theorem index3 : ∀ t : Fin cfg0.N, win0_3.index t 0 = 0 ∧ win0_3.index t 1 = t.val % 16 :=
  (by decide +kernel : ∀ t : Fin grid0.N, win0_3.index t 0 = 0 ∧ win0_3.index t 1 = t.val % 16)
theorem index4 : ∀ t : Fin cfg0.N, win0_4.index t 0 = t.val % 16 ∧ win0_4.index t 1 = 0 :=
  (by decide +kernel : ∀ t : Fin grid0.N, win0_4.index t 0 = t.val % 16 ∧ win0_4.index t 1 = 0)
theorem index5 : ∀ t : Fin cfg0.N, win0_5.index t 0 = t.val / 16 ∧ win0_5.index t 1 = 0 :=
  (by decide +kernel : ∀ t : Fin grid0.N, win0_5.index t 0 = t.val / 16 ∧ win0_5.index t 1 = 0)

/-- Query rows: local row `r` of the block is row `1024 * (t / 16) + r` of the array. -/
theorem queries_apply (c : Dev nD) (t : Fin cfg0.N) (r : Fin 1024) (d : Fin 256) (R : Fin 8192)
    (hR : R.val = 1024 * (t.val / 16) + r.val) :
    (iblk m c 0 t : Vec F S1024x256 .f32) (ix2 r d) = V m c main_arg0 (ix2 R d) := by
  unfold iblk
  rw [View.read_apply]
  show V m c main_arg0 _ = V m c main_arg0 _
  congr 1
  funext a
  apply Fin.ext
  match a with
  | ⟨0, _⟩ => show win0_0.index t 0 * 1024 + 1 * r.val = R.val; rw [(index0 t).1, hR]; omega
  | ⟨1, _⟩ => show win0_0.index t 1 * 256 + 1 * d.val = d.val; rw [(index0 t).2]; omega

/-- Training rows: local row `j` of the block is row `512 * (t % 16) + j` of the array. -/
theorem trainings_apply (c : Dev nD) (t : Fin cfg0.N) (j : Fin 512) (d : Fin 256) (J : Fin 8192)
    (hJ : J.val = 512 * (t.val % 16) + j.val) :
    (iblk m c 1 t : Vec F S512x256 .f32) (ix2 j d) = V m c main_arg1 (ix2 J d) := by
  unfold iblk
  rw [View.read_apply]
  show V m c main_arg1 _ = V m c main_arg1 _
  congr 1
  funext a
  apply Fin.ext
  match a with
  | ⟨0, _⟩ => show win0_1.index t 0 * 512 + 1 * j.val = J.val; rw [(index1 t).1, hJ]; omega
  | ⟨1, _⟩ => show win0_1.index t 1 * 256 + 1 * d.val = d.val; rw [(index1 t).2]; omega

/-- The query rows' squared norms, a column: local row `r` is row `1024 * (t / 16) + r`. -/
theorem querySq_apply (c : Dev nD) (t : Fin cfg0.N) (r : Fin 1024) (u : Fin 1) (R : Fin 8192)
    (hR : R.val = 1024 * (t.val / 16) + r.val) :
    (iblk m c 2 t : Vec F S1024x1 .f32) (ix2 r u) = V m c main_v2 (ix2 R u) := by
  unfold iblk
  rw [View.read_apply]
  show V m c main_v2 _ = V m c main_v2 _
  congr 1
  funext a
  apply Fin.ext
  match a with
  | ⟨0, _⟩ => show win0_2.index t 0 * 1024 + 1 * r.val = R.val; rw [(index2 t).1, hR]; omega
  | ⟨1, _⟩ => show win0_2.index t 1 * 1 + 1 * u.val = u.val; rw [(index2 t).2]; omega

/-- The training rows' squared norms, one row: local place `j` is place `512 * (t % 16) + j`. -/
theorem trainingSq_apply (c : Dev nD) (t : Fin cfg0.N) (u : Fin 1) (j : Fin 512) (J : Fin 8192)
    (hJ : J.val = 512 * (t.val % 16) + j.val) :
    (iblk m c 3 t : Vec F S1x512 .f32) (ix2 u j) = V m c main_v6 (ix2 u J) := by
  unfold iblk
  rw [View.read_apply]
  show V m c main_v6 _ = V m c main_v6 _
  congr 1
  funext a
  apply Fin.ext
  match a with
  | ⟨0, _⟩ => show win0_3.index t 0 * 1 + 1 * u.val = u.val; rw [(index3 t).1]; omega
  | ⟨1, _⟩ => show win0_3.index t 1 * 512 + 1 * j.val = J.val; rw [(index3 t).2, hJ]; omega

/-- The signed coefficients, a column: local row `j` is row `512 * (t % 16) + j`. -/
theorem coeffs_apply (c : Dev nD) (t : Fin cfg0.N) (j : Fin 512) (u : Fin 1) (J : Fin 8192)
    (hJ : J.val = 512 * (t.val % 16) + j.val) :
    (iblk m c 4 t : Vec F S512x1 .f32) (ix2 j u) = V m c main_v7 (ix2 J u) := by
  unfold iblk
  rw [View.read_apply]
  show V m c main_v7 _ = V m c main_v7 _
  congr 1
  funext a
  apply Fin.ext
  match a with
  | ⟨0, _⟩ => show win0_4.index t 0 * 512 + 1 * j.val = J.val; rw [(index4 t).1, hJ]; omega
  | ⟨1, _⟩ => show win0_4.index t 1 * 1 + 1 * u.val = u.val; rw [(index4 t).2]; omega

end Cert.KernelIdeal.Blocks

end
-- ==== Proof.KAccum.lean ====
/-
  The running column, point by point.

  Within a row group the sixteen points run in order. The first zeroes the running column and adds its block's
  weighted sum; every later one adds its own to what the point before left; the last also copies the column to the
  output block. So after the point at place `n` the column holds, at row `r`, the sum of the contributions of the
  points of its row group up to and including `n` — by induction on `n`, never by enumerating the 128 points.
-/
import proofs.«175856_j59622736003634_1_alg».proof.Proof.KPieces
import proofs.«175856_j59622736003634_1_alg».proof.Proof.KPayload
import proofs.«175856_j59622736003634_1_alg».proof.Proof.KBlocks

noncomputable section

open Idealize.ShloMosaic Idealize.ShloMosaic.TcCoe Idealize.SL.Sem Idealize.ShloMosaic.ValueIdx

namespace Cert.KernelIdeal.Accum

open Cert.KernelIdeal Cert.KernelIdeal.Gen

/-- One block's weighted sum at row `r`: over its 512 training rows, the Gaussian weight times the signed coefficient. -/
def blockSum (x0 : Vec Ideal S1024x256 .f32) (x1 : Vec Ideal S512x256 .f32) (x2 : Vec Ideal S1024x1 .f32) (x3 : Vec Ideal S1x512 .f32) (x4 : Vec Ideal S512x1 .f32) (r : Fin 1024) (u : Fin 1) : EReal :=
  ∑ j : Fin 512, Rbf.weight (x2 (ix2 r (0 : Fin 1))) (x3 (ix2 (0 : Fin 1) j)) (∑ d : Fin 256, x0 (ix2 r d) * x1 (ix2 j d)) * x4 (ix2 j u)

/-- A first point leaves its block's sum (the zero it starts from is the neutral element). -/
theorem first_val (c : Dev nD) (i : grid0.Coords) (a2 : Memref sig .tc .vmem S1024x256 .f32) (h2 : a2.IsWhole) (a3 : Memref sig .tc .vmem S512x256 .f32) (h3 : a3.IsWhole) (a4 : Memref sig .tc .vmem S1024x1 .f32) (h4 : a4.IsWhole) (a5 : Memref sig .tc .vmem S1x512 .f32) (h5 : a5.IsWhole) (a6 : Memref sig .tc .vmem S512x1 .f32) (h6 : a6.IsWhole) (a7 : Memref sig .tc .vmem S1024x1 .f32) (h7 : a7.IsWhole) (a8 : Memref sig .tc .vmem S1024x1 .f32) (h8 : a8.IsWhole) (hc0 : cond0_0 i) (hc1 : ¬cond0_1 i)
    (x0 : Vec Ideal S1024x256 .f32) (x1 : Vec Ideal S512x256 .f32) (x2 : Vec Ideal S1024x1 .f32) (x3 : Vec Ideal S1x512 .f32) (x4 : Vec Ideal S512x1 .f32) (r : Fin 1024) (u : Fin 1) :
    sout0_A_0 (F := Ideal) c i a2 h2 a3 h3 a4 h4 a5 h5 a6 h6 a7 h7 a8 h8 hc0 hc1 x0 x1 x2 x3 x4 (ix2 r u) = blockSum x0 x1 x2 x3 x4 r u := by
  rw [Pieces.scratch_A, Payload.step_apply, Payload.start_apply, zero_add]
  rfl

/-- A middle point adds its block's sum to what it found. -/
theorem middle_val (c : Dev nD) (i : grid0.Coords) (a2 : Memref sig .tc .vmem S1024x256 .f32) (h2 : a2.IsWhole) (a3 : Memref sig .tc .vmem S512x256 .f32) (h3 : a3.IsWhole) (a4 : Memref sig .tc .vmem S1024x1 .f32) (h4 : a4.IsWhole) (a5 : Memref sig .tc .vmem S1x512 .f32) (h5 : a5.IsWhole) (a6 : Memref sig .tc .vmem S512x1 .f32) (h6 : a6.IsWhole) (a7 : Memref sig .tc .vmem S1024x1 .f32) (h7 : a7.IsWhole) (a8 : Memref sig .tc .vmem S1024x1 .f32) (h8 : a8.IsWhole) (hc0 : ¬cond0_0 i) (hc1 : ¬cond0_1 i)
    (x0 : Vec Ideal S1024x256 .f32) (x1 : Vec Ideal S512x256 .f32) (x2 : Vec Ideal S1024x1 .f32) (x3 : Vec Ideal S1x512 .f32) (x4 : Vec Ideal S512x1 .f32) (xs0 : Vec Ideal S1024x1 .f32) (r : Fin 1024) (u : Fin 1) :
    sout0_B_0 (F := Ideal) c i a2 h2 a3 h3 a4 h4 a5 h5 a6 h6 a7 h7 a8 h8 hc0 hc1 x0 x1 x2 x3 x4 xs0 (ix2 r u) = xs0 (ix2 r u) + blockSum x0 x1 x2 x3 x4 r u := by
  rw [Pieces.scratch_B, Payload.step_apply]
  rfl

/-- So does a last point, -/
theorem last_val (c : Dev nD) (i : grid0.Coords) (a2 : Memref sig .tc .vmem S1024x256 .f32) (h2 : a2.IsWhole) (a3 : Memref sig .tc .vmem S512x256 .f32) (h3 : a3.IsWhole) (a4 : Memref sig .tc .vmem S1024x1 .f32) (h4 : a4.IsWhole) (a5 : Memref sig .tc .vmem S1x512 .f32) (h5 : a5.IsWhole) (a6 : Memref sig .tc .vmem S512x1 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i)
    (x0 : Vec Ideal S1024x256 .f32) (x1 : Vec Ideal S512x256 .f32) (x2 : Vec Ideal S1024x1 .f32) (x3 : Vec Ideal S1x512 .f32) (x4 : Vec Ideal S512x1 .f32) (xs0 : Vec Ideal S1024x1 .f32) (r : Fin 1024) (u : Fin 1) :
    sout0_C_0 (F := Ideal) c i a2 h2 a3 h3 a4 h4 a5 h5 a6 h6 a7 h7 a8 h8 hc0 hc1 x0 x1 x2 x3 x4 xs0 (ix2 r u) = xs0 (ix2 r u) + blockSum x0 x1 x2 x3 x4 r u := by
  rw [Pieces.scratch_C, Payload.step_apply]
  rfl

/-- which hands the output block the column it has just stored. -/
theorem last_out (c : Dev nD) (i : grid0.Coords) (a2 : Memref sig .tc .vmem S1024x256 .f32) (h2 : a2.IsWhole) (a3 : Memref sig .tc .vmem S512x256 .f32) (h3 : a3.IsWhole) (a4 : Memref sig .tc .vmem S1024x1 .f32) (h4 : a4.IsWhole) (a5 : Memref sig .tc .vmem S1x512 .f32) (h5 : a5.IsWhole) (a6 : Memref sig .tc .vmem S512x1 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i)
    (x0 : Vec Ideal S1024x256 .f32) (x1 : Vec Ideal S512x256 .f32) (x2 : Vec Ideal S1024x1 .f32) (x3 : Vec Ideal S1x512 .f32) (x4 : Vec Ideal S512x1 .f32) (xs0 : Vec Ideal S1024x1 .f32) (r : Fin 1024) (u : Fin 1) :
    out0_C_5 (F := Ideal) c i a2 h2 a3 h3 a4 h4 a5 h5 a6 h6 a7 h7 a8 h8 hc0 hc1 x0 x1 x2 x3 x4 xs0 (ix2 r u) = xs0 (ix2 r u) + blockSum x0 x1 x2 x3 x4 r u := by
  rw [Pieces.out_C, Payload.step_apply]
  rfl

variable (m : (ℓ : Loc nD τ sig) → Buf (Elt Ideal) ℓ)

/-- What point `t` contributes at row `r`: the weighted sum of the blocks it is handed. -/
def contrib (c : Dev nD) (t : Fin cfg0.N) (r : Fin 1024) (u : Fin 1) : EReal :=
  blockSum (iblk m c 0 t) (iblk m c 1 t) (iblk m c 2 t) (iblk m c 3 t) (iblk m c 4 t) r u

/-- The same with the point given by its place, zero past the grid. -/
def contribN (c : Dev nD) (p : ℕ) (r : Fin 1024) (u : Fin 1) : EReal :=
  if h : p < cfg0.N then contrib m c ⟨p, h⟩ r u else 0

/-- After the first point of a row group the column holds that point's contribution. -/
theorem at_first (c : Dev nD) (t : Fin cfg0.N) (h0 : t.val % 16 = 0) (r : Fin 1024) (u : Fin 1) :
    (outsAt0 m c t.val t.isLt).2 (ix2 r u) = contrib m c t r u := by
  have h1 : ¬t.val % 16 = 15 := by omega
  rw [outsAt0_A m c t h0 h1]
  dsimp only
  exact first_val c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t) r u

/-- After any later point it holds what the point before left plus this point's contribution. -/
theorem at_later (c : Dev nD) (t : Fin cfg0.N) (h0 : ¬t.val % 16 = 0) (r : Fin 1024) (u : Fin 1) :
    (outsAt0 m c t.val t.isLt).2 (ix2 r u) = (outsAt0 m c (t.val - 1) (Nat.lt_of_le_of_lt (Nat.sub_le _ _) t.isLt)).2 (ix2 r u) + contrib m c t r u := by
  by_cases h1 : t.val % 16 = 15
  · rw [outsAt0_C m c t h0 h1]
    dsimp only
    exact last_val c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2 r u
  · rw [outsAt0_B m c t h0 h1]
    dsimp only
    exact middle_val c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2 r u

/-- At a last point the output block holds the column. -/
theorem out_at_last (c : Dev nD) (t : Fin cfg0.N) (h1 : t.val % 16 = 15) (r : Fin 1024) (u : Fin 1) :
    (outsAt0 m c t.val t.isLt).1 (ix2 r u) = (outsAt0 m c t.val t.isLt).2 (ix2 r u) := by
  have h0 : ¬t.val % 16 = 0 := by omega
  rw [outsAt0_C m c t h0 h1]
  dsimp only
  exact (last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2 r u).trans
    (last_val c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2 r u).symm

/-- THE PARTIAL SUMS: after the point at place `n` the column holds, at row `r`, the contributions of the points of its
    row group (places `16 * (n / 16) + s`) for `s` up to `n % 16`. -/
theorem scratch_eq (c : Dev nD) : ∀ (n : ℕ) (hn : n < cfg0.N) (r : Fin 1024) (u : Fin 1),
    (outsAt0 m c n hn).2 (ix2 r u) = ∑ s ∈ Finset.range (n % 16 + 1), contribN m c (16 * (n / 16) + s) r u := by
  intro n
  induction n with
  | zero =>
    intro hn r u
    rw [at_first m c ⟨0, hn⟩ rfl r u]
    show _ = ∑ s ∈ Finset.range 1, contribN m c (0 + s) r u
    rw [Finset.sum_range_one]
    unfold contribN
    rw [dif_pos hn]
  | succ n ih =>
    intro hn r u
    by_cases h0 : (n + 1) % 16 = 0
    · rw [at_first m c ⟨n + 1, hn⟩ h0 r u, h0, Finset.sum_range_one]
      have e : 16 * ((n + 1) / 16) + 0 = n + 1 := by omega
      rw [e]
      unfold contribN
      rw [dif_pos hn]
    · rw [at_later m c ⟨n + 1, hn⟩ h0 r u]
      show (outsAt0 m c n (Nat.lt_of_succ_lt hn)).2 (ix2 r u) + _ = _
      have e1 : (n + 1) / 16 = n / 16 := by omega
      have e2 : (n + 1) % 16 = n % 16 + 1 := by omega
      have e3 : 16 * (n / 16) + (n % 16 + 1) = n + 1 := by omega
      rw [ih (Nat.lt_of_succ_lt hn) r u, e1, e2, Finset.sum_range_succ _ (n % 16 + 1), e3]
      refine congrArg (_ + ·) ?_
      unfold contribN
      rw [dif_pos hn]

end Cert.KernelIdeal.Accum

end
-- ==== Proof.KWhole.lean ====
/-
  From blocks to whole arrays.

  Written over the arrays as the grid finds them, a point's contribution at a row is the sum, over the 512 training
  rows of its training group, of one summand per (query row, training row) pair. Summing the sixteen points of a row
  group therefore runs over all 8192 training rows: what a last point hands to the output block, at local row `r` of
  row group `i`, is the full sum for query row `1024 * i + r`.
-/
import proofs.«175856_j59622736003634_1_alg».proof.Proof.KAccum

noncomputable section

open Idealize.ShloMosaic Idealize.ShloMosaic.TcCoe Idealize.SL.Sem Idealize.ShloMosaic.ValueIdx

namespace Cert.KernelIdeal.Whole

open Cert.KernelIdeal Cert.KernelIdeal.Gen

variable (m : (ℓ : Loc nD τ sig) → Buf (Elt Ideal) ℓ)

/-- The five arrays the grid is launched on, as the host lines before it leave them, read as extended reals: the query
    rows, the training rows, the query rows' squared norms (a column), the training rows' (one row), and the signed
    coefficients (a column). -/
def queries (c : Dev nD) : (⟨2, ![8192, 256]⟩ : Shape).Idx → EReal := V m c main_arg0
def trainings (c : Dev nD) : (⟨2, ![8192, 256]⟩ : Shape).Idx → EReal := V m c main_arg1
def querySq (c : Dev nD) : (⟨2, ![8192, 1]⟩ : Shape).Idx → EReal := V m c main_v2
def trainingSq (c : Dev nD) : (⟨2, ![1, 8192]⟩ : Shape).Idx → EReal := V m c main_v6
def coeffs (c : Dev nD) : (⟨2, ![8192, 1]⟩ : Shape).Idx → EReal := V m c main_v7

/-- The summand of query row `R` and training row `J`: the Gaussian weight of the pair (from the two squared norms and
    the inner product over the 256 features) times the signed coefficient of `J`. -/
def term (c : Dev nD) (R J : Fin 8192) (u : Fin 1) : EReal :=
  Rbf.weight (querySq m c (ix2 R (0 : Fin 1))) (trainingSq m c (ix2 (0 : Fin 1) J))
    (∑ d : Fin 256, queries m c (ix2 R d) * trainings m c (ix2 J d)) * coeffs m c (ix2 J u)

/-- The point of row group `i` and training group `k` contributes, at local row `r`, the summands of query row
    `1024 * i + r` against the training rows `512 * k + j`. -/
theorem contrib_eq (c : Dev nD) (t : Fin cfg0.N) (i : Fin 8) (k : Fin 16) (ht : t.val = 16 * i.val + k.val)
    (r : Fin 1024) (u : Fin 1) :
    Accum.contrib m c t r u = ∑ j : Fin 512, term m c (Rbf.row i r) (Rbf.col k j) u := by
  have hq : t.val / 16 = i.val := by have := k.isLt; omega
  have hm : t.val % 16 = k.val := by have := k.isLt; omega
  have hR : (Rbf.row i r).val = 1024 * (t.val / 16) + r.val := by rw [hq]
  have hJ : ∀ j : Fin 512, (Rbf.col k j).val = 512 * (t.val % 16) + j.val := fun j => by rw [hm]
  unfold Accum.contrib Accum.blockSum term
  refine Finset.sum_congr rfl fun j _ => ?_
  rw [Blocks.querySq_apply m c t r 0 (Rbf.row i r) hR, Blocks.trainingSq_apply m c t 0 j (Rbf.col k j) (hJ j),
    Blocks.coeffs_apply m c t j u (Rbf.col k j) (hJ j)]
  refine congrArg (fun s => Rbf.weight _ _ s * _) (Finset.sum_congr rfl fun d _ => ?_)
  rw [Blocks.queries_apply m c t r d (Rbf.row i r) hR, Blocks.trainings_apply m c t j d (Rbf.col k j) (hJ j)]
  rfl

/-- At the last point of a row group the output block holds, at local row `r`, the sum over ALL training rows. -/
theorem block_total (c : Dev nD) (t : Fin cfg0.N) (h15 : t.val % 16 = 15) (i : Fin 8) (hi : t.val / 16 = i.val)
    (r : Fin 1024) (u : Fin 1) :
    (outsAt0 m c t.val t.isLt).1 (ix2 r u) = ∑ J : Fin 8192, term m c (Rbf.row i r) J u := by
  have hN : cfg0.N = 128 := N_0
  rw [Accum.out_at_last m c t h15 r u, Accum.scratch_eq m c t.val t.isLt r u, h15, hi]
  show ∑ s ∈ Finset.range 16, Accum.contribN m c (16 * i.val + s) r u = _
  rw [Finset.sum_range, ← Rbf.sum_groups]
  refine Finset.sum_congr rfl fun k _ => ?_
  have hp : 16 * i.val + k.val < cfg0.N := by have := k.isLt; have := i.isLt; omega
  unfold Accum.contribN
  rw [dif_pos hp]
  exact contrib_eq m c ⟨16 * i.val + k.val, hp⟩ i k rfl r u

end Cert.KernelIdeal.Whole

end
-- ==== Proof.KFinal.lean ====
/-
  The output array, and the result after the host line that follows the grid.

  Only the last point of each row group writes its output block back, and those eight blocks tile the [8192,1] output:
  query row `R` lies in the block of row group `R / 1024`. So the output array ends holding, at every query row, the sum
  over all 8192 training rows of the pair's summand; the one host line after the grid adds the bias to every row.
-/
import proofs.«175856_j59622736003634_1_alg».proof.Proof.KWhole
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

/-- The output array: at query row `R`, the sum over all training rows of the pair's summand. -/
def sumsFn (c : Dev nD) : (⟨2, ![8192, 1]⟩ : Shape).Idx → EReal :=
  fun I => ∑ J : Fin 8192, Whole.term m c ⟨(I 0).val, (I 0).isLt⟩ J ⟨(I 1).val, (I 1).isLt⟩

/-- The same as contents of the output buffer. -/
def sums (c : Dev nD) : Buf (Elt Ideal) ((c : Thread nD τ).loc main_v8) := sumsFn m c

/-- The output array at an index whose two coordinates are `R` and `u`. -/
theorem sums_apply (c : Dev nD) (I : S8192x1.Idx) (R : Fin 8192) (u : Fin 1) (h0 : (I 0).val = R.val) (h1 : (I 1).val = u.val) :
    sums m c I = ∑ J : Fin 8192, Whole.term m c R J u := by
  have e0 : (⟨(I 0).val, (I 0).isLt⟩ : Fin 8192) = R := Fin.ext h0
  have e1 : (⟨(I 1).val, (I 1).isLt⟩ : Fin 1) = u := Fin.ext h1
  show ∑ J : Fin 8192, Whole.term m c ⟨(I 0).val, (I 0).isLt⟩ J ⟨(I 1).val, (I 1).isLt⟩ = _
  rw [e0, e1]

/-- What a last point writes back is its block of that array. -/
theorem flushed_eq (c : Dev nD) (t : Fin cfg0.N) (hf : (cfg0.win 5).flush t = true) :
    (dats m 0 c).flushed 5 t = ((cfg0.win 5).blk t).view.read (Elt Ideal) (sums m c) := by
  have hN : cfg0.N = 128 := N_0
  have h15 : t.val % 16 = 15 := (flush0_5 t).mp hf
  have hi : t.val / 16 < 8 := by have := t.isLt; omega
  show (cfg0.win 5).cut (grid0.coords t) ((dats m 0 c).after 5 t) = _
  rw [after0_5]
  funext y
  obtain ⟨r, u, rfl⟩ : ∃ (r : Fin 1024) (u : Fin 1), y = ix2 r u := ⟨y 0, y 1, eq_ix2 y⟩
  show (outsAt0 m c t.val t.isLt).1 (ix2 r u) = sums m c (((cfg0.win 5).blk t).view.emb (ix2 r u))
  rw [Whole.block_total m c t h15 ⟨t.val / 16, hi⟩ rfl r u]
  refine (sums_apply m c _ (Rbf.row ⟨t.val / 16, hi⟩ r) u ?_ ?_).symm
  · show win0_5.index t 0 * 1024 + 1 * r.val = 1024 * (t.val / 16) + r.val
    rw [(Blocks.index5 t).1]; omega
  · show win0_5.index t 1 * 1 + 1 * u.val = u.val
    rw [(Blocks.index5 t).2]; omega

/-- An index of the output array is in point `t`'s block iff each coordinate is in the block's range on its axis. -/
theorem mem_blk (t : Fin cfg0.N) (I : S8192x1.Idx) :
    I ∈ ((cfg0.win 5).blk t).view.set ↔ ∀ a : Fin 2, win0_5.index t a * S1024x1.size a ≤ (I a).val ∧ (I a).val < win0_5.index t a * S1024x1.size a + S1024x1.size a := by
  show I ∈ ((View.whole main_v8).slice (win0_5.rect t)).set ↔ _
  rw [View.set_slice_whole, Rect.mem_set_unit]
  exact Iff.rfl

/-- Every query row is written back by the last point of its row group. -/
theorem cover (c : Dev nD) (I : S8192x1.Idx) :
    ∃ t : Fin cfg0.N, (cfg0.win 5).flush t = true ∧ I ∈ ((cfg0.win 5).blk t).view.set := by
  have hN : cfg0.N = 128 := N_0
  have h0 : (I 0).val < 8192 := (I 0).isLt
  have h1 : (I 1).val < 1 := (I 1).isLt
  have hlt : 16 * ((I 0).val / 1024) + 15 < cfg0.N := by omega
  refine ⟨⟨16 * ((I 0).val / 1024) + 15, hlt⟩, (flush0_5 _).mpr (by show (16 * ((I 0).val / 1024) + 15) % 16 = 15; omega), ?_⟩
  rw [mem_blk]
  intro a
  have e0 := (Blocks.index5 ⟨16 * ((I 0).val / 1024) + 15, hlt⟩).1
  have e1 := (Blocks.index5 ⟨16 * ((I 0).val / 1024) + 15, hlt⟩).2
  have ev : (16 * ((I 0).val / 1024) + 15) / 16 = (I 0).val / 1024 := by omega
  match a with
  | ⟨0, _⟩ =>
    show win0_5.index ⟨16 * ((I 0).val / 1024) + 15, hlt⟩ 0 * 1024 ≤ (I 0).val ∧ (I 0).val < win0_5.index ⟨16 * ((I 0).val / 1024) + 15, hlt⟩ 0 * 1024 + 1024
    rw [e0]; show (16 * ((I 0).val / 1024) + 15) / 16 * 1024 ≤ _ ∧ _ < (16 * ((I 0).val / 1024) + 15) / 16 * 1024 + 1024
    rw [ev]; omega
  | ⟨1, _⟩ =>
    show win0_5.index ⟨16 * ((I 0).val / 1024) + 15, hlt⟩ 1 * 1 ≤ (I 1).val ∧ (I 1).val < win0_5.index ⟨16 * ((I 0).val / 1024) + 15, hlt⟩ 1 * 1 + 1
    rw [e1]; omega

/-- So the output array ends holding the sums. -/
theorem final (c : Dev nD) : (dats m 0 c).arrAt 5 cfg0.N = sums m c :=
  (dats m 0 c).arrAt_eq_of_cover 5 (sums m c) (flushed_eq m c) (cover c)

/-- The bias: the one entry of the rank-0 argument. -/
def bias (c : Dev nD) : EReal :=
  (show (⟨0, ![]⟩ : Shape).Idx → EReal from m ((c : Thread nD τ).loc main_arg4)) ix0

/-- The result: the sums with the bias added at every row. -/
def resultFn (c : Dev nD) : (⟨2, ![8192, 1]⟩ : Shape).Idx → EReal := fun I => sumsFn m c I + bias m c

/-- The same as contents of the result buffer. -/
def result (c : Dev nD) : Buf (Elt Ideal) ((c : Thread nD τ).loc main_v10) := resultFn m c

/-- The host line after the grid adds the broadcast bias to the output array: the result buffer ends at `result`. -/
theorem tail_eq (c : Dev nD) :
    Pipeline.afterTail₀ cfgs (dats m) 0 (V0 m) [hostOps1] c main_v10 = result m c := by
  unfold Pipeline.afterTail₀
  show StableHlo.after hostOps1 _ (Proc.devRef .tc main_v10) = _
  after_results
  have h8 : Pipeline.withArrays (cfgs 0).spec c (V0 m c) (fun w => (dats m 0 c).arrAt w (cfgs 0).N) (Proc.devRef .tc main_v8)
      = sums m c := (Pipeline.withArrays_arr spec0 launch0.win.arr_inj c _ _ 5).trans (final m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  rw [h8, h4]
  have hb : ∀ I : S8192x1.Idx,
      (show (⟨2, ![8192, 1]⟩ : Shape).Idx → EReal from
        broadcastInDim S8192x1 ![] bcast_S_S8192x1 (m ((c : Thread nD τ).loc main_arg4))) I = bias m c :=
    fun I => broadcastInDim_apply _ bcast_S_S8192x1 _ I ix0 (fun a => a.elim0)
  funext I
  exact congrArg (sumsFn m c I + ·) (hb I)

/-- THE RUN, READ: every weakly fair execution of the program ends with the result buffer at `result` and the five
    argument arrays as launched. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.RbfPredict.lean ====
/-
  The specification both programs meet: an RBF support-vector prediction on the extended reals.

  For query row `R`: the sum over all training rows `J` of `exp (-(1/2) * ((|x_R|^2 + |y_J|^2) - 2 * <x_R, y_J>))`
  times the coefficient of `J`, plus the bias. A squared norm is the sum of the squares of the 256 features, started
  from the zero word as both programs start it.
-/
import proofs.«175856_j59622736003634_1_alg».proof.Proof.RbfSpec

noncomputable section

namespace Cert.Rbf

open Idealize.ShloMosaic

/-- The squared norm of row `R`. -/
def sqNorm (x : Fin 8192 → Fin 256 → EReal) (R : Fin 8192) : EReal :=
  Ideal.ofBits .f32 0x00000000#32 + ∑ d : Fin 256, x R d * x R d

/-- The prediction for query row `R`. -/
def predict (x y : Fin 8192 → Fin 256 → EReal) (a : Fin 8192 → EReal) (b : EReal) (R : Fin 8192) : EReal :=
  (∑ J : Fin 8192, weight (sqNorm x R) (sqNorm y J) (∑ d : Fin 256, x R d * y J d) * a J) + b

end Cert.Rbf

end
-- ==== Proof.KHost.lean ====
/-
  The kernel's result is the specification.

  The host lines before the grid square the two feature arrays and sum each row (the training rows' sums then laid out
  as one row by a transpose), and multiply the two coefficient columns; the grid reads the feature arrays themselves
  as launched. Substituting these into the summand, the result at query row `R` is the prediction of the five argument
  arrays.
-/
import proofs.«175856_j59622736003634_1_alg».proof.Proof.KFinal
import proofs.«175856_j59622736003634_1_alg».proof.Proof.RbfPredict
import Idealize.ShloMosaic.Lib.ValueLayout

noncomputable section

open Idealize.ShloMosaic Idealize.ShloMosaic.TcCoe Idealize.SL.Sem Idealize.ShloMosaic.ValueIdx

namespace Cert.KernelIdeal.HostSide

open Cert.KernelIdeal Cert.KernelIdeal.Gen

variable (m : (ℓ : Loc nD τ sig) → Buf (Elt Ideal) ℓ)

/-- The argument arrays as launched: query rows, training rows, the two coefficient columns. -/
def argX (c : Dev nD) : FVec Ideal S8192x256 .f32 := m ((c : Thread nD τ).loc main_arg0)
def argY (c : Dev nD) : FVec Ideal S8192x256 .f32 := m ((c : Thread nD τ).loc main_arg1)
def argA (c : Dev nD) : FVec Ideal S8192x1 .f32 := m ((c : Thread nD τ).loc main_arg2)
def argS (c : Dev nD) : FVec Ideal S8192x1 .f32 := m ((c : Thread nD τ).loc main_arg3)

/-- A row's sum of squares, from the zero word: the squared norm of that row. -/
theorem rowSq_apply (x : FVec Ideal S8192x256 .f32) (R : Fin 8192) :
    Host.reduceAdd (F := Ideal) (mulf x x) (constant (F := Ideal) S_ .f32 0x00000000#32) reducesTo_S8192x256_S8192_d1 h_S_ (ix1 R)
      = Rbf.sqNorm (fun R d => x (ix2 R d)) R := by
  simp only [Host.reduceAdd, Ideal.hostReduceAdd_def]
  rw [Ideal.hostReduceAdd_single reducesTo_S8192x256_S8192_d1 (by decide)]
  unfold Rbf.sqNorm
  refine congrArg₂ (· + ·) rfl (Finset.sum_congr rfl fun d _ => ?_)
  exact congrArg (fun i => x i * x i) (funext fun a => Fin.ext (by match a with | ⟨0, _⟩ => rfl | ⟨1, _⟩ => rfl))

theorem queries_eq (c : Dev nD) : Whole.queries m c = argX m c := V_main_arg0 m c
theorem trainings_eq (c : Dev nD) : Whole.trainings m c = argY m c := V_main_arg1 m c

/-- The query rows' squared norms: the column the first three host lines build. -/
theorem querySq_eq (c : Dev nD) (R : Fin 8192) (u : Fin 1) :
    Whole.querySq m c (ix2 R u) = Rbf.sqNorm (fun R d => argX m c (ix2 R d)) R := by
  have e : Whole.querySq m c = broadcastInDim S8192x1 ![0] bcast_S8192_S8192x1_0
      (Host.reduceAdd (F := Ideal) (mulf (argX m c) (argX m c)) (constant (F := Ideal) S_ .f32 0x00000000#32) reducesTo_S8192x256_S8192_d1 h_S_) := by
    show StableHlo.after hostOps0 (fun b => m (c, b)) (Proc.devRef .tc main_v2) = _
    after_results
    rfl
  rw [e, broadcastInDim_apply _ bcast_S8192_S8192x1_0 _ (ix2 R u) (ix1 R) (fun a => match a with
    | ⟨0, _⟩ => by show R.val = if (8192 : Nat) = 1 then 0 else R.val; rw [if_neg (by decide)])]
  exact rowSq_apply (argX m c) R

/-- The training rows' squared norms: the same column for the training array, transposed to one row. -/
theorem trainingSq_eq (c : Dev nD) (u : Fin 1) (J : Fin 8192) :
    Whole.trainingSq m c (ix2 u J) = Rbf.sqNorm (fun J d => argY m c (ix2 J d)) J := by
  have e : Whole.trainingSq m c = transpose S1x8192 [1, 0] (broadcastInDim S8192x1 ![0] bcast_S8192_S8192x1_0
      (Host.reduceAdd (F := Ideal) (mulf (argY m c) (argY m c)) (constant (F := Ideal) S_ .f32 0x00000000#32) reducesTo_S8192x256_S8192_d1 h_S_))
      transposes_S8192x1_S1x8192_1_0 := by
    show StableHlo.after hostOps0 (fun b => m (c, b)) (Proc.devRef .tc main_v6) = _
    after_results
    rfl
  rw [e, transpose_ix2_apply, broadcastInDim_apply _ bcast_S8192_S8192x1_0 _ (ix2 J u) (ix1 J) (fun a => match a with
    | ⟨0, _⟩ => by show J.val = if (8192 : Nat) = 1 then 0 else J.val; rw [if_neg (by decide)])]
  exact rowSq_apply (argY m c) J

/-- The signed coefficients: the product of the two coefficient columns. -/
theorem coeffs_eq (c : Dev nD) (J : Fin 8192) (u : Fin 1) :
    Whole.coeffs m c (ix2 J u) = argA m c (ix2 J u) * argS m c (ix2 J u) := by
  have e : Whole.coeffs m c = mulf (argA m c) (argS m c) := by
    show StableHlo.after hostOps0 (fun b => m (c, b)) (Proc.devRef .tc main_v7) = _
    after_results
    rfl
  rw [e]
  rfl

/-- THE KERNEL'S RESULT at query row `R` is the prediction of the argument arrays. -/
theorem result_apply (c : Dev nD) (R : Fin 8192) (u : Fin 1) :
    Final.resultFn m c (ix2 R u) = Rbf.predict (fun R d => argX m c (ix2 R d)) (fun J d => argY m c (ix2 J d))
      (fun J => argA m c (ix2 J u) * argS m c (ix2 J u)) (Final.bias m c) R := by
  unfold Final.resultFn Rbf.predict
  refine congrArg (· + Final.bias m c) ?_
  show ∑ J : Fin 8192, Whole.term m c R J u = _
  refine Finset.sum_congr rfl fun J _ => ?_
  unfold Whole.term
  rw [querySq_eq, trainingSq_eq, coeffs_eq, queries_eq, trainings_eq]

end Cert.KernelIdeal.HostSide

end
-- ==== Proof.RefValue.lean ====
/-
  The reference computes the specification.

  Read one operation at a time: the result at query row `R` is the second matrix product at `R` plus the broadcast bias;
  the product sums, over all training rows `J`, the exponential at (R, J) times the product of the two coefficient
  columns at `J`; the exponent is `-(1/2)` times (the two broadcast squared norms added, minus twice the first matrix
  product at (R, J)), and that product is the inner product of query row `R` and training row `J` (the training array
  transposed). Each squared norm is a row sum of squares started from the zero word.
-/
import proofs.«175856_j59622736003634_1_alg».proof.Proof.Gen.ReferenceIdeal.Read
import proofs.«175856_j59622736003634_1_alg».proof.Proof.RbfPredict
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- A row's squared norm as the reference computes it. -/
theorem rowSq0_apply (x0 : (⟨S8192x256, .f32⟩ : BufTy).Contents (Elt Ideal)) (R : Fin 8192) :
    val_main_v1 (F := Ideal) x0 (ix1 R) = Rbf.sqNorm (fun R d => x0 (ix2 R d)) R := by
  rw [val_main_v1_apply]
  unfold Rbf.sqNorm
  refine congrArg₂ (· + ·) rfl (Finset.sum_congr rfl fun d _ => ?_)
  rw [val_main_v0_apply]
  have e : idx_main_v1 (ix1 R) d = ix2 R d := funext fun a => Fin.ext (by match a with | ⟨0, _⟩ => rfl | ⟨1, _⟩ => rfl)
  rw [e]
  rfl

theorem rowSq1_apply (x1 : (⟨S8192x256, .f32⟩ : BufTy).Contents (Elt Ideal)) (J : Fin 8192) :
    val_main_v4 (F := Ideal) x1 (ix1 J) = Rbf.sqNorm (fun J d => x1 (ix2 J d)) J := by
  rw [val_main_v4_apply]
  unfold Rbf.sqNorm
  refine congrArg₂ (· + ·) rfl (Finset.sum_congr rfl fun d _ => ?_)
  rw [val_main_v3_apply]
  have e : idx_main_v4 (ix1 J) d = ix2 J d := funext fun a => Fin.ext (by match a with | ⟨0, _⟩ => rfl | ⟨1, _⟩ => rfl)
  rw [e]
  rfl

/-- The exponential at (R, J) is the Gaussian weight of the pair. -/
theorem weight_apply (x0 x1 : (⟨S8192x256, .f32⟩ : BufTy).Contents (Elt Ideal)) (R J : Fin 8192) :
    val_main_v16 (F := Ideal) x0 x1 (ix2 R J)
      = Rbf.weight (Rbf.sqNorm (fun R d => x0 (ix2 R d)) R) (Rbf.sqNorm (fun J d => x1 (ix2 J d)) J)
          (∑ d : Fin 256, x0 (ix2 R d) * x1 (ix2 J d)) := by
  rw [val_main_v16_apply, val_main_v15_apply, val_main_v14_apply, val_main_cst_2_apply, val_main_v13_apply,
    val_main_v8_apply, val_main_v6_apply, val_main_v7_apply, val_main_v2_apply, val_main_v5_apply,
    val_main_v12_apply, val_main_v11_apply, val_main_cst_1_apply, val_main_v10_apply]
  have e2 : idx_main_v2 (idx_main_v6 (ix2 R J)) = ix1 R := funext fun a => Fin.ext (by match a with | ⟨0, _⟩ => rfl)
  have e5 : idx_main_v5 (idx_main_v7 (ix2 R J)) = ix1 J := funext fun a => Fin.ext (by match a with | ⟨0, _⟩ => rfl)
  rw [e2, e5, rowSq0_apply, rowSq1_apply]
  have hs : (∑ k : Fin 256, x0 (lidx_main_v10 (ix2 R J) k) * val_main_v9 (F := Ideal) x1 (ridx_main_v10 (ix2 R J) k))
      = ∑ d : Fin 256, x0 (ix2 R d) * x1 (ix2 J d) :=
    Finset.sum_congr rfl fun d _ => by
      rw [val_main_v9_apply]
      have el : lidx_main_v10 (ix2 R J) d = ix2 R d :=
        funext fun a => Fin.ext (by match a with | ⟨0, _⟩ => rfl | ⟨1, _⟩ => rfl)
      have er : idx_main_v9 (ridx_main_v10 (ix2 R J) d) = ix2 J d :=
        funext fun a => Fin.ext (by match a with | ⟨0, _⟩ => rfl | ⟨1, _⟩ => rfl)
      rw [el, er]
  rw [hs]
  rfl

/-- THE REFERENCE'S RESULT at query row `R` is the prediction of its argument arrays. -/
theorem result_apply (x0 x1 : (⟨S8192x256, .f32⟩ : BufTy).Contents (Elt Ideal)) (x2 x3 : (⟨S8192x1, .f32⟩ : BufTy).Contents (Elt Ideal))
    (x4 : (⟨S_, .f32⟩ : BufTy).Contents (Elt Ideal)) (R : Fin 8192) (u : Fin 1) :
    val_main_v20 (F := Ideal) x0 x1 x2 x3 x4 (ix2 R u)
      = Rbf.predict (fun R d => x0 (ix2 R d)) (fun J d => x1 (ix2 J d)) (fun J => x2 (ix2 J u) * x3 (ix2 J u)) (x4 ix0) R := by
  rw [val_main_v20_apply, val_main_v18_apply, val_main_v19_apply, Ideal.addf_def]
  unfold Rbf.predict
  refine congrArg₂ (· + ·) (Finset.sum_congr rfl fun J _ => ?_) (congrArg x4 (funext fun a => a.elim0))
  have el : lidx_main_v18 (ix2 R u) J = ix2 R J :=
    funext fun a => Fin.ext (by match a with | ⟨0, _⟩ => rfl | ⟨1, _⟩ => rfl)
  have er : ridx_main_v18 (ix2 R u) J = ix2 J u :=
    funext fun a => Fin.ext (by match a with | ⟨0, _⟩ => rfl | ⟨1, _⟩ => rfl)
  rw [el, er, weight_apply, val_main_v17_apply]
  rfl

end Cert.ReferenceIdeal.RefValue

end
-- ==== Proof.lean ====
/-
  An RBF support-vector prediction, tiled, against the same prediction written in one piece.

  For 8192 query rows and 8192 training rows of 256 features, both programs compute, for each query row, the sum over
  all training rows of `exp (-(1/2) * ((|x|^2 + |y|^2) - 2 * <x, y>))` times the product of the row's two coefficients,
  plus a bias. The tiled program walks an 8 by 16 grid: a row group of 1024 query rows against a training group of 512
  training rows per point, a running column zeroed at the first training group, added to at every one, and written out
  at the last. The one-piece program forms the whole 8192 by 8192 matrix of weights and multiplies it by the
  coefficient column.

  On the extended reals the narrowing of a value to a 16-bit format is the identity, a matrix product into a zero
  accumulator is a plain sum, and addition is commutative and associative; so the sixteen partial sums of 512 terms
  are the one sum of 8192 terms, and the two results agree entry by entry, for every input (no finiteness is used:
  nothing is cancelled or distributed). Both sides are shown equal to one specification, `Cert.Rbf.predict`.

  The modules: RbfSpec, RbfPredict (the arithmetic, no program); KPieces (what each of the three control cases of the
  body leaves in the running column and the output block); KPayload (the stored column at a row); KBlocks (the blocks
  a point is handed, at global coordinates); KAccum (the running column after each point, by induction); KWhole (a
  last point's output block as the full sums); KFinal (the output array, the bias added, the run); KHost (the lines
  before the grid, and the result as the specification); RefValue (the one-piece program as the specification).
-/
import proofs.«175856_j59622736003634_1_alg».proof.Defs
import proofs.«175856_j59622736003634_1_alg».proof.Proof.Gen.Kernel
import proofs.«175856_j59622736003634_1_alg».proof.Proof.Gen.Kernel.Skeleton
import proofs.«175856_j59622736003634_1_alg».proof.Proof.Gen.Kernel.Launch
import proofs.«175856_j59622736003634_1_alg».proof.Proof.Gen.Kernel.Points
import proofs.«175856_j59622736003634_1_alg».proof.Proof.Gen.Kernel.Frame
import proofs.«175856_j59622736003634_1_alg».proof.Proof.Gen.KernelIdeal
import proofs.«175856_j59622736003634_1_alg».proof.Proof.Gen.KernelIdeal.Skeleton
import proofs.«175856_j59622736003634_1_alg».proof.Proof.Gen.KernelIdeal.Launch
import proofs.«175856_j59622736003634_1_alg».proof.Proof.Gen.KernelIdeal.Points
import proofs.«175856_j59622736003634_1_alg».proof.Proof.Gen.KernelIdeal.Frame
import proofs.«175856_j59622736003634_1_alg».proof.Proof.Gen.ReferenceIdeal
import proofs.«175856_j59622736003634_1_alg».proof.Proof.Gen.ReferenceIdeal.Run
import proofs.«175856_j59622736003634_1_alg».proof.Proof.Gen.ReferenceIdeal.Read
import proofs.«175856_j59622736003634_1_alg».proof.Proof.Gen.Pre_finite_inputs
import proofs.«175856_j59622736003634_1_alg».proof.Proof.KHost
import proofs.«175856_j59622736003634_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The tiled program, read word by word, runs and leaves its arguments as launched. -/
theorem frame_kernel : Cert.frame_Kernel := fun m ρ _ => Cert.Kernel.Gen.frame m ρ

/-- So does it read on the extended reals. -/
theorem frame_kernelIdeal : Cert.frame_KernelIdeal := fun m ρ _ => Cert.KernelIdeal.Gen.frame m ρ

/-- The one-piece program runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the tiled program on the extended reals rewrote no operation. -/
theorem preserves : Cert.preserves_Kernel_KernelIdeal := trivial

/-- From arguments that agree, the tiled program ends at the prediction of its arguments (KFinal's run, KHost) and the
    one-piece program at the prediction of its own (its run, RefValue): the same array, entry by entry. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v20_eq]
  funext I
  obtain ⟨R, u, rfl⟩ : ∃ (R : Fin 8192) (u : Fin 1), I = ix2 R u := ⟨I 0, I 1, eq_ix2 I⟩
  exact (Cert.ReferenceIdeal.RefValue.result_apply _ _ _ _ _ R u).trans
    (Cert.KernelIdeal.HostSide.result_apply m c R u).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
